-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel

variable [Facts]

def fn {F : FTy → Type} [FloatOps F] (main_arg0 : FVec F S4x16x2048x64 .f32) (main_arg1 : FVec F S4x16x2048x64 .f32) (main_arg2 : FVec F S4x16x2048x64 .f32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  main_v13
-- ==== Kernel.lean ====
abbrev S4x16x2048x64 : Shape := ⟨4, ![4, 16, 2048, 64]⟩
abbrev S1x1x1024x64 : Shape := ⟨4, ![1, 1, 1024, 64]⟩
abbrev S1x1x2048x64 : Shape := ⟨4, ![1, 1, 2048, 64]⟩
abbrev S1024x64 : Shape := ⟨2, ![1024, 64]⟩
abbrev S2048x64 : Shape := ⟨2, ![2048, 64]⟩
abbrev S1024x2048 : Shape := ⟨2, ![1024, 2048]⟩

abbrev nBuf : Space → Nat
  | .hbm => 4
  | .vmem => 8
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x16x2048x64, .f32⟩
  | .local _ .vmem, ⟨0, _⟩ => ⟨S1x1x1024x64, .f32⟩
  | .local _ .vmem, ⟨1, _⟩ => ⟨S1x1x1024x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x1024x64, .f32⟩
  | .local _ .vmem, ⟨7, _⟩ => ⟨S1x1x1024x64, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 16, 2], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

class Facts₀ : Prop where
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  bitsLt_bf16_f32 : FTy.bits .bf16 < FTy.bits .f32
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  shapeCasts_S1024x64_S1x1x1024x64 : S1024x64.ShapeCasts S1x1x1024x64
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x64.size a ≤ S4x16x2048x64.size a
  hwx0_0 : ∀ i : grid0.Coords, EltTy.bits .f32 = 32 ∨ (Rect.block (s := S4x16x2048x64) S1x1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S4x16x2048x64.size a
  hwx0_1 : ∀ i : grid0.Coords, EltTy.bits .f32 = 32 ∨ (Rect.block (s := S4x16x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S4x16x2048x64.size a
  hwx0_2 : ∀ i : grid0.Coords, EltTy.bits .f32 = 32 ∨ (Rect.block (s := S4x16x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024x64.size a ≤ S4x16x2048x64.size a
  hwx0_3 : ∀ i : grid0.Coords, EltTy.bits .f32 = 32 ∨ (Rect.block (s := S4x16x2048x64) S1x1x1024x64.size (cc0_transform_3 i) (hinb0_3 i)).WholeWords (EltTy.packing .f32)

variable [Facts₀]

def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg0) S1x1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S4x16x2048x2048 : Shape := ⟨4, ![4, 16, 2048, 2048]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x16x2048x2048, .f32⟩
  | .hbm, ⟨4, _⟩ => ⟨S_, .f32⟩
  | .hbm, ⟨5, _⟩ => ⟨S4x16x2048x2048, .f32⟩
  | .hbm, ⟨6, _⟩ => ⟨S4x16x2048x2048, .f32⟩
  | .hbm, ⟨7, _⟩ => ⟨S4x16x2048x2048, .f32⟩
  | .hbm, ⟨8, _⟩ => ⟨S4x16x2048x2048, .f32⟩
  | .hbm, ⟨9, _⟩ => ⟨S_, .f32⟩
  | .hbm, ⟨10, _⟩ => ⟨S4x16x2048x2048, .f32⟩
  | .hbm, ⟨11, _⟩ => ⟨S4x16x2048x2048, .f32⟩
  | .hbm, ⟨12, _⟩ => ⟨S_, .f32⟩
  | .hbm, ⟨13, _⟩ => ⟨S4x16x2048x2048, .f32⟩
  | .hbm, ⟨14, _⟩ => ⟨S4x16x2048x2048, .f32⟩
  | .hbm, ⟨15, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.LibLogisticTanh.lean ====
/-
  The logistic function through the hyperbolic tangent, on the extended reals:

      1/2 · (tanh (1/2 · x) + 1) = 1 / (1 + e^(-x))        for EVERY extended real x.

  On a real x, with y = x/2: (tanh y + 1)/2 = e^y / (e^y + e^(-y)) = 1 / (1 + e^(-2y)). At +∞ both sides are 1
  (tanh ⊤ = 1; e^(-⊤) = 0), at -∞ both are 0 (tanh ⊥ = -1; 1 / (1 + ⊤) = 0). So a program that spells the logistic
  function with one tanh and a program that spells it with an exponential and a quotient agree with no finiteness
  assumption on the argument. Stated over the reals, over the extended reals, and over the f32 patterns of 0.5 and 1.0.
-/
import Idealize.ShloMosaic.PureOps.Ideal

noncomputable section

namespace Cert.LibLogisticTanh

open Idealize.ShloMosaic

/-- The f32 pattern of 0.5 denotes 1/2. -/
theorem ofBits_half : Ideal.ofBits .f32 0x3F000000#32 = ((1 / 2 : ℝ) : EReal) := by
  simp [Ideal.ofBits, Ideal.ieee, -EReal.coe_mul]; norm_num

/-- The f32 pattern of 1.0 denotes 1. -/
theorem ofBits_one : Ideal.ofBits .f32 0x3F800000#32 = (1 : EReal) := by
  rw [← EReal.coe_one]; simp [Ideal.ofBits, Ideal.ieee, -EReal.coe_mul, -EReal.coe_one]; norm_num

/-- (tanh y + 1) / 2 = 1 / (1 + e^(-2y)) on the reals: multiply numerator and denominator of e^y / (e^y + e^(-y)) by e^(-y). -/
theorem half_tanh_add_one (y : ℝ) : 1 / 2 * (Real.tanh y + 1) = (1 + Real.exp (-(2 * y)))⁻¹ := by
  have hpos : 0 < Real.exp y := Real.exp_pos y
  have hneg : Real.exp (-y) = (Real.exp y)⁻¹ := Real.exp_neg y
  have h2 : Real.exp (-(2 * y)) = (Real.exp y)⁻¹ * (Real.exp y)⁻¹ := by
    rw [← hneg, ← Real.exp_add]; congr 1; ring
  rw [Real.tanh_eq_sinh_div_cosh, Real.sinh_eq, Real.cosh_eq, hneg, h2]
  have hne : Real.exp y ≠ 0 := hpos.ne'
  have hsum : Real.exp y * Real.exp y + 1 ≠ 0 := by positivity
  field_simp
  ring

/-- 1/2 · (tanh (1/2 · x) + 1) is the logistic function of x, at every extended real. -/
theorem half_tanh_half_eq_logistic (x : EReal) :
    ((1 / 2 : ℝ) : EReal) * (Ideal.tanh (((1 / 2 : ℝ) : EReal) * x) + 1) = Ideal.logistic x := by
  induction x using EReal.rec with
  | bot =>
    rw [EReal.coe_mul_bot_of_pos (by norm_num), Ideal.tanh_bot, Ideal.logistic_bot]
    rw [show ((-1 : EReal)) = ((-1 : ℝ) : EReal) from by rw [EReal.coe_neg, EReal.coe_one], ← EReal.coe_one,
      ← EReal.coe_add, ← EReal.coe_mul]
    norm_num
  | top =>
    rw [EReal.coe_mul_top_of_pos (by norm_num), Ideal.tanh_top, Ideal.logistic_top]
    rw [← EReal.coe_one, ← EReal.coe_add, ← EReal.coe_mul]
    norm_num
  | coe r =>
    rw [← EReal.coe_mul, Ideal.tanh_coe, ← EReal.coe_one, ← EReal.coe_add, ← EReal.coe_mul, Ideal.logistic_coe,
      half_tanh_add_one]
    congr 4; ring

/-- The same with 0.5 and 1.0 as f32 patterns: the tanh spelling of a float program. -/
theorem tanh_spelling_f32 (x : EReal) :
    Ideal.ofBits .f32 0x3F000000#32 * (Ideal.tanh (Ideal.ofBits .f32 0x3F000000#32 * x) + Ideal.ofBits .f32 0x3F800000#32)
      = Ideal.logistic x := by
  rw [ofBits_half, ofBits_one, half_tanh_half_eq_logistic]

/-- The exponential spelling of a float program, 1.0 / (1.0 + e^(-x)) with 1.0 as its f32 pattern, is the logistic
    function by definition. -/
theorem exp_spelling_f32 (x : EReal) :
    Ideal.div (Ideal.ofBits .f32 0x3F800000#32) (Ideal.ofBits .f32 0x3F800000#32 + Ideal.exp (-x)) = Ideal.logistic x := by
  rw [ofBits_one]; rfl

end Cert.LibLogisticTanh

end
-- ==== Proof.SigmoidForms.lean ====
/-
  The two spellings of the attention weight that the two programs use, as one function on the extended reals.

  One program scales a score x by the dyadic 1/8, halves it, takes tanh, adds one and halves again:
  1/2 · (tanh (1/2 · (x · 1/8)) + 1). The other divides the score by 8 and applies 1 / (1 + e^(-·)).
  Dividing by 8 is multiplying by 1/8 on every extended real, and 1/2 · (tanh (1/2 · z) + 1) = 1 / (1 + e^(-z)) at every
  extended real z (LibLogisticTanh); so both are the logistic function of x · 1/8, with no finiteness of the score needed.
-/
import Idealize.ShloMosaic.PureOps.Ideal
import proofs.«155484_j54846732370353_2_alg».proof.Proof.LibLogisticTanh

noncomputable section

namespace Cert.SigmoidForms

open Idealize.ShloMosaic

/-- The f32 pattern of 0.125 denotes 1/8. -/
theorem ofBits_eighth : Ideal.ofBits .f32 0x3E000000#32 = ((1 / 8 : ℝ) : EReal) := by
  simp [Ideal.ofBits, Ideal.ieee, -EReal.coe_mul]; norm_num

/-- The f32 pattern of 8.0 denotes 8. -/
theorem ofBits_eight : Ideal.ofBits .f32 0x41000000#32 = ((8 : ℝ) : EReal) := by
  simp [Ideal.ofBits, Ideal.ieee, -EReal.coe_mul]; norm_num

/-- Dividing by 8 is multiplying by 1/8, at the infinities too. -/
theorem div_eight (x : EReal) : Ideal.div x ((8 : ℝ) : EReal) = x * ((1 / 8 : ℝ) : EReal) :=
  Ideal.div_coe (by norm_num) x

/-- The tanh spelling of the logistic function of x/8 is the exponential spelling, at every extended real x. -/
theorem tanh_form_eq_exp_form (x : EReal) :
    Ideal.ofBits .f32 0x3F000000#32
        * (Ideal.tanh (Ideal.ofBits .f32 0x3F000000#32 * (x * Ideal.ofBits .f32 0x3E000000#32)) + Ideal.ofBits .f32 0x3F800000#32)
      = Ideal.div (Ideal.ofBits .f32 0x3F800000#32)
          (Ideal.ofBits .f32 0x3F800000#32 + Ideal.exp (-(Ideal.div x (Ideal.ofBits .f32 0x41000000#32)))) := by
  rw [Cert.LibLogisticTanh.tanh_spelling_f32, Cert.LibLogisticTanh.exp_spelling_f32, ofBits_eighth, ofBits_eight, div_eight]

end Cert.SigmoidForms

end
-- ==== Proof.AttentionSpec.lean ====
/-
  What both programs compute, as one function of the three argument arrays q, k, v of shape [4, 16, 2048, 64]
  (batch b, head h, position, feature):

    out[b, h, a, e] = Σ_j  w(s[b, h, a, j]) · v[b, h, j, e],     s[b, h, a, j] = Σ_d q[b, h, a, d] · k[b, h, j, d],

  with w the logistic function of a score divided by 8 (the square root of the 64 features): w(x) = 1 / (1 + e^(-(x/8))).
  There is no normalisation across the keys j: each weight depends on one score only. All sums and products are those
  of the extended reals; nothing below uses more of them than that they are sums and products.

  The same formula on ONE (b, h) pair and a run of 1024 query rows, with the two leading coordinates fixed at 0, is
  what a block of the output is in terms of blocks of the arguments (blockAttend).
-/
import Idealize.ShloMosaic.Lib.ValueIdx
import proofs.«155484_j54846732370353_2_alg».proof.Proof.SigmoidForms

noncomputable section

open scoped BigOperators

namespace Cert.SigmoidAttention

open Idealize.ShloMosaic Idealize.ShloMosaic.ValueIdx

/-- The weight of a score: the logistic function of the score over 8, in the spelling 1 / (1 + e^(-(x / 8))) with the
    float literals 1.0 and 8.0 as their patterns. -/
def weight (x : EReal) : EReal :=
  Ideal.div (Ideal.ofBits .f32 0x3F800000#32)
    (Ideal.ofBits .f32 0x3F800000#32 + Ideal.exp (-(Ideal.div x (Ideal.ofBits .f32 0x41000000#32))))

/-- The same weight in the spelling 1/2 · (tanh (1/2 · (x · 1/8)) + 1). -/
theorem weight_eq_tanh_form (x : EReal) :
    Ideal.ofBits .f32 0x3F000000#32
        * (Ideal.tanh (Ideal.ofBits .f32 0x3F000000#32 * (x * Ideal.ofBits .f32 0x3E000000#32)) + Ideal.ofBits .f32 0x3F800000#32)
      = weight x :=
  Cert.SigmoidForms.tanh_form_eq_exp_form x

/-- The score of query row a against key row j, within batch b and head h: the inner product over the 64 features. -/
def score (q k : (⟨4, ![4, 16, 2048, 64]⟩ : Shape).Idx → EReal) (b : Fin 4) (h : Fin 16) (a j : Fin 2048) : EReal :=
  ∑ d : Fin 64, q (ix4 b h a d) * k (ix4 b h j d)

/-- The output array: at (b, h, a, e) the weighted sum over the 2048 key rows j of v[b, h, j, e]. -/
def attend (q k v : (⟨4, ![4, 16, 2048, 64]⟩ : Shape).Idx → EReal) : (⟨4, ![4, 16, 2048, 64]⟩ : Shape).Idx → EReal :=
  fun i => ∑ j : Fin 2048, weight (score q k (i 0) (i 1) (i 2) j) * v (ix4 (i 0) (i 1) j (i 3))

/-- The same on blocks: 1024 query rows of one (b, h) pair against all 2048 key and value rows of that pair, the
    two leading (unit) coordinates at 0. -/
def blockAttend (qb : (⟨4, ![1, 1, 1024, 64]⟩ : Shape).Idx → EReal) (kb vb : (⟨4, ![1, 1, 2048, 64]⟩ : Shape).Idx → EReal) :
    (⟨4, ![1, 1, 1024, 64]⟩ : Shape).Idx → EReal :=
  fun y => ∑ j : Fin 2048,
    weight (∑ d : Fin 64, qb (ix4 (0 : Fin 1) (0 : Fin 1) (y 2) d) * kb (ix4 (0 : Fin 1) (0 : Fin 1) j d))
      * vb (ix4 (0 : Fin 1) (0 : Fin 1) j (y 3))

end Cert.SigmoidAttention

end
-- ==== Proof.ReferenceValue.lean ====
/-
  The host program's result is the attention formula of the argument arrays.

  Its thirteen operations, read at an index (b, h, a, e): the last contraction is a sum over key rows j of the weight
  array at (b, h, a, j) times v at (b, h, j, e); the weight array at (b, h, a, j) is 1 / (1 + e^(-(s / 8))) of the
  first contraction s at (b, h, a, j), a sum over the features d of q at (b, h, a, d) times k at (b, h, j, d).
  That is the specification's formula term for term; only the index tuples need identifying.
-/
import proofs.«155484_j54846732370353_2_alg».proof.Proof.Gen.ReferenceIdeal.Read
import proofs.«155484_j54846732370353_2_alg».proof.Proof.AttentionSpec

noncomputable section

open scoped BigOperators

namespace Cert.ReferenceIdeal.RefValue

open Cert.ReferenceIdeal Cert.ReferenceIdeal.Read Idealize.ShloMosaic Idealize.ShloMosaic.ValueIdx
open Cert.SigmoidAttention

/-- The second contraction reads v at (b, h, j, e). -/
theorem ridx_v9 (i : S4x16x2048x64.Idx) (j : Fin 2048) : ridx_main_v9 i j = ix4 (i 0) (i 1) j (i 3) :=
  funext fun a => Fin.ext (by match a with | ⟨0, _⟩ => rfl | ⟨1, _⟩ => rfl | ⟨2, _⟩ => rfl | ⟨3, _⟩ => rfl)

/-- The first contraction, at the weight index (b, h, a, j) the second contraction reads, reads q at (b, h, a, d) … -/
theorem lidx_v0 (i : S4x16x2048x64.Idx) (j : Fin 2048) (d : Fin 64) :
    lidx_main_v0 (lidx_main_v9 i j) d = ix4 (i 0) (i 1) (i 2) d :=
  funext fun a => Fin.ext (by match a with | ⟨0, _⟩ => rfl | ⟨1, _⟩ => rfl | ⟨2, _⟩ => rfl | ⟨3, _⟩ => rfl)

/-- … and k at (b, h, j, d). -/
theorem ridx_v0 (i : S4x16x2048x64.Idx) (j : Fin 2048) (d : Fin 64) :
    ridx_main_v0 (lidx_main_v9 i j) d = ix4 (i 0) (i 1) j d :=
  funext fun a => Fin.ext (by match a with | ⟨0, _⟩ => rfl | ⟨1, _⟩ => rfl | ⟨2, _⟩ => rfl | ⟨3, _⟩ => rfl)

/-- The weight array at (b, h, a, j) is the weight of the score of row a against row j. -/
theorem weight_at (x0 x1 : (⟨S4x16x2048x64, .f32⟩ : BufTy).Contents (Elt Ideal)) (i : S4x16x2048x64.Idx) (j : Fin 2048) :
    val_main_v8 (F := Ideal) x0 x1 (lidx_main_v9 i j) = weight (score x0 x1 (i 0) (i 1) (i 2) j) := by
  rw [val_main_v8_apply, val_main_v7_apply, val_main_cst_1_apply, val_main_v6_apply, val_main_v5_apply, val_main_cst_0_apply,
    val_main_v4_apply, val_main_v3_apply, val_main_v2_apply, val_main_v1_apply, val_main_cst_apply, val_main_v0_apply]
  simp only [lidx_v0, ridx_v0]
  rfl

/-- The host program's result array is the attention formula of its three arguments. -/
theorem result_eq (x0 x1 x2 : (⟨S4x16x2048x64, .f32⟩ : BufTy).Contents (Elt Ideal)) :
    val_main_v9 (F := Ideal) x0 x1 x2 = attend x0 x1 x2 := by
  funext i
  rw [val_main_v9_apply]
  unfold attend
  refine Finset.sum_congr rfl fun j _ => ?_
  rw [weight_at, ridx_v9]
  rfl

end Cert.ReferenceIdeal.RefValue

end
-- ==== Proof.BlockValue.lean ====
/-
  What the kernel body stores for one grid point, as a function of the three blocks it loads: the attention formula
  on blocks (blockAttend).

  The body drops the two unit axes of each block ([1,1,n,64] read as [n,64]), contracts the query block against the key
  block over the 64 features (a product into a zero accumulator: just the sum), scales each score by 1/8, applies
  1/2 · (tanh (1/2 · x) + 1), contracts the weights against the value block over the 2048 key rows, and puts the two
  unit axes back. Changes of float format are the identity on the extended reals. Read at (0, 0, a, e) this is the
  sum over j of weight(score a j) · v[j, e], the weight in its tanh spelling, which is the logistic one at every
  extended real.
-/
import proofs.«155484_j54846732370353_2_alg».proof.Proof.Gen.KernelIdeal.Skeleton
import proofs.«155484_j54846732370353_2_alg».proof.Proof.AttentionSpec
import Idealize.ShloMosaic.Lib.Pipeline.Value
import Idealize.ShloMosaic.Lib.ValueIdx
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx
open Cert.SigmoidAttention

/-! ## The layout steps at an index -/

/-- A [1,1,1024,64] block read as a [1024,64] matrix: entry (a, d) is the block at (0, 0, a, d). -/
theorem rows1024_at (x : S1x1x1024x64.Idx → EReal) (h : S1x1x1024x64.ShapeCasts S1024x64) (a : Fin 1024) (d : Fin 64) :
    shapeCast S1024x64 x h (ix2 a d) = x (ix4 (0 : Fin 1) (0 : Fin 1) a d) := by
  refine shapeCast_apply x h (ix2 a d) (ix4 (0 : Fin 1) (0 : Fin 1) a d) ?_
  rw [Shape.rowMajor_val_four, Shape.rowMajor_val_two]
  show ((0 * 1 + 0) * 1024 + a.val) * 64 + d.val = a.val * 64 + d.val
  omega

/-- A [1,1,2048,64] block read as a [2048,64] matrix: entry (j, d) is the block at (0, 0, j, d). -/
theorem rows2048_at (x : S1x1x2048x64.Idx → EReal) (h : S1x1x2048x64.ShapeCasts S2048x64) (j : Fin 2048) (d : Fin 64) :
    shapeCast S2048x64 x h (ix2 j d) = x (ix4 (0 : Fin 1) (0 : Fin 1) j d) := by
  refine shapeCast_apply x h (ix2 j d) (ix4 (0 : Fin 1) (0 : Fin 1) j d) ?_
  rw [Shape.rowMajor_val_four, Shape.rowMajor_val_two]
  show ((0 * 1 + 0) * 2048 + j.val) * 64 + d.val = j.val * 64 + d.val
  omega

/-- A [1024,64] matrix stored as a [1,1,1024,64] block: the block at (y0, y1, a, e) is the matrix at (a, e). -/
theorem block_of_rows_at (x : S1024x64.Idx → EReal) (h : S1024x64.ShapeCasts S1x1x1024x64)
    (y0 y1 : Fin 1) (a : Fin 1024) (e : Fin 64) :
    shapeCast S1x1x1024x64 x h (ix4 y0 y1 a e) = x (ix2 a e) := by
  refine shapeCast_apply x h (ix4 y0 y1 a e) (ix2 a e) ?_
  rw [Shape.rowMajor_val_four, Shape.rowMajor_val_two]
  show a.val * 64 + e.val = ((y0.val * 1 + y1.val) * 1024 + a.val) * 64 + e.val
  have h0 := y0.isLt
  have h1 := y1.isLt
  omega

/-! ## The two contractions at an index

Each operand index of a contraction, coordinate by coordinate: a kept axis reads the result index, the contracted axis
the contraction position. -/

theorem qk_lhs_0 (i : S1024x2048.Idx) (q : dot_S1024x64_S2048x64_S1024x2048_1_1_0_0_n_n.contr.Idx) : (dot_S1024x64_S2048x64_S1024x2048_1_1_0_0_n_n.lhsIdx i q 0).val = (i 0).val := by
  unfold DotDims.lhsIdx
  rw [dif_neg (show ¬(0 : Fin S1024x64.rank) ∈ dot_S1024x64_S2048x64_S1024x2048_1_1_0_0_n_n.lhsBatch by decide),
    dif_pos (show (0 : Fin S1024x64.rank) ∈ dot_S1024x64_S2048x64_S1024x2048_1_1_0_0_n_n.lhsNonContracting by decide)]
  rfl
theorem qk_lhs_1 (i : S1024x2048.Idx) (q : dot_S1024x64_S2048x64_S1024x2048_1_1_0_0_n_n.contr.Idx) : (dot_S1024x64_S2048x64_S1024x2048_1_1_0_0_n_n.lhsIdx i q 1).val = (q ⟨0, by decide⟩).val :=
  dot_S1024x64_S2048x64_S1024x2048_1_1_0_0_n_n.lhsIdx_val_of_single rfl i q
theorem qk_rhs_0 (i : S1024x2048.Idx) (q : dot_S1024x64_S2048x64_S1024x2048_1_1_0_0_n_n.contr.Idx) : (dot_S1024x64_S2048x64_S1024x2048_1_1_0_0_n_n.rhsIdx i q 0).val = (i 1).val := by
  unfold DotDims.rhsIdx
  rw [dif_neg (show ¬(0 : Fin S2048x64.rank) ∈ dot_S1024x64_S2048x64_S1024x2048_1_1_0_0_n_n.rhsBatch by decide),
    dif_pos (show (0 : Fin S2048x64.rank) ∈ dot_S1024x64_S2048x64_S1024x2048_1_1_0_0_n_n.rhsNonContracting by decide)]
  rfl
theorem qk_rhs_1 (i : S1024x2048.Idx) (q : dot_S1024x64_S2048x64_S1024x2048_1_1_0_0_n_n.contr.Idx) : (dot_S1024x64_S2048x64_S1024x2048_1_1_0_0_n_n.rhsIdx i q 1).val = (q ⟨0, by decide⟩).val :=
  dot_S1024x64_S2048x64_S1024x2048_1_1_0_0_n_n.rhsIdx_val_of_single rfl i q

/-- Query rows against key rows: entry (a, j) of the product into zero is the inner product over the 64 features. -/
theorem scores_at (l : FVec Ideal S1024x64 .bf16) (r : FVec Ideal S2048x64 .bf16) (a : Fin 1024) (j : Fin 2048) :
    matmul dot_S1024x64_S2048x64_S1024x2048_1_1_0_0_n_n none l r (constant (F := Ideal) S1024x2048 .f32 0x00000000#32) (ix2 a j)
      = ∑ d : Fin 64, l (ix2 a d) * r (ix2 j d) := by
  simp only [matmul]
  rw [Ideal.matmul_constant_zero_apply, ← Equiv.sum_comp (contrEquiv1 dot_S1024x64_S2048x64_S1024x2048_1_1_0_0_n_n 64 rfl rfl).symm]
  refine Finset.sum_congr rfl fun d _ => ?_
  have hk := contrEquiv1_symm_val dot_S1024x64_S2048x64_S1024x2048_1_1_0_0_n_n 64 rfl rfl d
  have el : dot_S1024x64_S2048x64_S1024x2048_1_1_0_0_n_n.lhsIdx (ix2 a j) ((contrEquiv1 dot_S1024x64_S2048x64_S1024x2048_1_1_0_0_n_n 64 rfl rfl).symm d) = ix2 a d :=
    funext fun x => Fin.ext (by
      match x with
      | ⟨0, _⟩ => exact qk_lhs_0 _ _
      | ⟨1, _⟩ => exact (qk_lhs_1 _ _).trans hk)
  have er : dot_S1024x64_S2048x64_S1024x2048_1_1_0_0_n_n.rhsIdx (ix2 a j) ((contrEquiv1 dot_S1024x64_S2048x64_S1024x2048_1_1_0_0_n_n 64 rfl rfl).symm d) = ix2 j d :=
    funext fun x => Fin.ext (by
      match x with
      | ⟨0, _⟩ => exact qk_rhs_0 _ _
      | ⟨1, _⟩ => exact (qk_rhs_1 _ _).trans hk)
  rw [el, er]

theorem pv_lhs_0 (i : S1024x64.Idx) (q : dot_S1024x2048_S2048x64_S1024x64_1_0_0_1_n_n.contr.Idx) : (dot_S1024x2048_S2048x64_S1024x64_1_0_0_1_n_n.lhsIdx i q 0).val = (i 0).val := by
  unfold DotDims.lhsIdx
  rw [dif_neg (show ¬(0 : Fin S1024x2048.rank) ∈ dot_S1024x2048_S2048x64_S1024x64_1_0_0_1_n_n.lhsBatch by decide),
    dif_pos (show (0 : Fin S1024x2048.rank) ∈ dot_S1024x2048_S2048x64_S1024x64_1_0_0_1_n_n.lhsNonContracting by decide)]
  rfl
theorem pv_lhs_1 (i : S1024x64.Idx) (q : dot_S1024x2048_S2048x64_S1024x64_1_0_0_1_n_n.contr.Idx) : (dot_S1024x2048_S2048x64_S1024x64_1_0_0_1_n_n.lhsIdx i q 1).val = (q ⟨0, by decide⟩).val :=
  dot_S1024x2048_S2048x64_S1024x64_1_0_0_1_n_n.lhsIdx_val_of_single rfl i q
theorem pv_rhs_0 (i : S1024x64.Idx) (q : dot_S1024x2048_S2048x64_S1024x64_1_0_0_1_n_n.contr.Idx) : (dot_S1024x2048_S2048x64_S1024x64_1_0_0_1_n_n.rhsIdx i q 0).val = (q ⟨0, by decide⟩).val :=
  dot_S1024x2048_S2048x64_S1024x64_1_0_0_1_n_n.rhsIdx_val_of_single rfl i q
theorem pv_rhs_1 (i : S1024x64.Idx) (q : dot_S1024x2048_S2048x64_S1024x64_1_0_0_1_n_n.contr.Idx) : (dot_S1024x2048_S2048x64_S1024x64_1_0_0_1_n_n.rhsIdx i q 1).val = (i 1).val := by
  unfold DotDims.rhsIdx
  rw [dif_neg (show ¬(1 : Fin S2048x64.rank) ∈ dot_S1024x2048_S2048x64_S1024x64_1_0_0_1_n_n.rhsBatch by decide),
    dif_pos (show (1 : Fin S2048x64.rank) ∈ dot_S1024x2048_S2048x64_S1024x64_1_0_0_1_n_n.rhsNonContracting by decide)]
  rfl

/-- Weights against value rows: entry (a, e) of the product into zero is the sum over the 2048 key rows. -/
theorem mix_at (l : FVec Ideal S1024x2048 .bf16) (r : FVec Ideal S2048x64 .bf16) (a : Fin 1024) (e : Fin 64) :
    matmul dot_S1024x2048_S2048x64_S1024x64_1_0_0_1_n_n none l r (constant (F := Ideal) S1024x64 .f32 0x00000000#32) (ix2 a e)
      = ∑ j : Fin 2048, l (ix2 a j) * r (ix2 j e) := by
  simp only [matmul]
  rw [Ideal.matmul_constant_zero_apply, ← Equiv.sum_comp (contrEquiv1 dot_S1024x2048_S2048x64_S1024x64_1_0_0_1_n_n 2048 rfl rfl).symm]
  refine Finset.sum_congr rfl fun j _ => ?_
  have hk := contrEquiv1_symm_val dot_S1024x2048_S2048x64_S1024x64_1_0_0_1_n_n 2048 rfl rfl j
  have el : dot_S1024x2048_S2048x64_S1024x64_1_0_0_1_n_n.lhsIdx (ix2 a e) ((contrEquiv1 dot_S1024x2048_S2048x64_S1024x64_1_0_0_1_n_n 2048 rfl rfl).symm j) = ix2 a j :=
    funext fun x => Fin.ext (by
      match x with
      | ⟨0, _⟩ => exact pv_lhs_0 _ _
      | ⟨1, _⟩ => exact (pv_lhs_1 _ _).trans hk)
  have er : dot_S1024x2048_S2048x64_S1024x64_1_0_0_1_n_n.rhsIdx (ix2 a e) ((contrEquiv1 dot_S1024x2048_S2048x64_S1024x64_1_0_0_1_n_n 2048 rfl rfl).symm j) = ix2 j e :=
    funext fun x => Fin.ext (by
      match x with
      | ⟨0, _⟩ => exact (pv_rhs_0 _ _).trans hk
      | ⟨1, _⟩ => exact pv_rhs_1 _ _)
  rw [el, er]

/-! ## The body's stored value -/

/-- What the body stores is the attention formula on the three loaded blocks. -/
theorem payload_eq (x0 : Vec Ideal S1x1x1024x64 .f32) (x1 x2 : Vec Ideal S1x1x2048x64 .f32) :
    k0_pay1 (F := Ideal) x0 x1 x2 = blockAttend x0 x1 x2 := by
  funext y
  obtain ⟨y0, y1, a, e, rfl⟩ : ∃ (y0 y1 : Fin 1) (a : Fin 1024) (e : Fin 64), y = ix4 y0 y1 a e :=
    ⟨y 0, y 1, y 2, y 3, eq_ix4 y⟩
  unfold k0_pay1 blockAttend
  refine (block_of_rows_at _ _ y0 y1 a e).trans ?_
  refine (mix_at _ _ a e).trans ?_
  refine Finset.sum_congr rfl fun j _ => ?_
  show Ideal.ofBits .f32 0x3F000000#32
        * (Ideal.tanh (Ideal.ofBits .f32 0x3F000000#32
            * (matmul dot_S1024x64_S2048x64_S1024x2048_1_1_0_0_n_n none _ _ (constant (F := Ideal) S1024x2048 .f32 0x00000000#32) (ix2 a j)
                * Ideal.ofBits .f32 0x3E000000#32))
          + Ideal.ofBits .f32 0x3F800000#32)
        * shapeCast S2048x64 x2 shapeCasts_S1x1x2048x64_S2048x64 (ix2 j e) = _
  rw [weight_eq_tanh_form, scores_at, rows2048_at]
  refine congrArg (fun s => weight s * _) (Finset.sum_congr rfl fun d _ => ?_)
  show shapeCast S1024x64 x0 shapeCasts_S1x1x1024x64_S1024x64 (ix2 a d)
      * shapeCast S2048x64 x1 shapeCasts_S1x1x2048x64_S2048x64 (ix2 j d) = _
  rw [rows1024_at, rows2048_at]

end Cert.KernelIdeal.BlockValue

end
-- ==== Proof.ArrayValue.lean ====
/-
  From blocks to the array: after the kernel's run the result array is the attention formula of the three argument
  arrays.

  The grid has 4 · 16 · 2 points (b, h, half). At a point the query and result blocks are rows
  1024·half … 1024·half + 1023 of the (b, h) matrices; the key and value blocks are all 2048 rows of the (b, h)
  matrices, whatever the half. So what a point writes back (the block formula of its three input blocks) is the
  result block of the whole-array formula: the scores of a query row use only that row of q and all of k[b, h], the
  mix only all of v[b, h]. The 128 result blocks tile the array (the block holding row r of (b, h) is the point
  (b, h, r / 1024)), so the array ends holding the formula everywhere.
-/
import proofs.«155484_j54846732370353_2_alg».proof.Proof.Gen.KernelIdeal.Value
import proofs.«155484_j54846732370353_2_alg».proof.Proof.BlockValue

noncomputable section

open scoped BigOperators

namespace Cert.KernelIdeal.ArrayValue

open Cert.KernelIdeal Cert.KernelIdeal.Gen Idealize.ShloMosaic Idealize.ShloMosaic.TcCoe Idealize.SL.Sem
open Idealize.ShloMosaic.Pipeline (Dat)
open Idealize.ShloMosaic.ValueIdx Cert.SigmoidAttention

variable (m : (ℓ : Loc nD τ sig) → Buf (Elt Ideal) ℓ) (ρ : Dev nD → PrngReg)

theorem zero_offsets : (![0, 0, 0, 0] : Fin 4 → Nat) = fun _ => 0 := funext fun a => by fin_cases a <;> rfl

/-- The block formula on blocks that read three arrays where the result block's index i says — the query block its
    row of (b, h), the key and value blocks every row of (b, h) — is the array formula at i. -/
theorem blockAttend_eq_attend_at (q k v : (⟨4, ![4, 16, 2048, 64]⟩ : Shape).Idx → EReal)
    (qb : (⟨4, ![1, 1, 1024, 64]⟩ : Shape).Idx → EReal) (kb vb : (⟨4, ![1, 1, 2048, 64]⟩ : Shape).Idx → EReal)
    (y : (⟨4, ![1, 1, 1024, 64]⟩ : Shape).Idx) (i : (⟨4, ![4, 16, 2048, 64]⟩ : Shape).Idx)
    (hq : ∀ d : Fin 64, qb (ix4 (0 : Fin 1) (0 : Fin 1) (y 2) d) = q (ix4 (i 0) (i 1) (i 2) d))
    (hk : ∀ (j : Fin 2048) (d : Fin 64), kb (ix4 (0 : Fin 1) (0 : Fin 1) j d) = k (ix4 (i 0) (i 1) j d))
    (hv : ∀ j : Fin 2048, vb (ix4 (0 : Fin 1) (0 : Fin 1) j (y 3)) = v (ix4 (i 0) (i 1) j (i 3))) :
    blockAttend qb kb vb y = attend q k v i := by
  unfold blockAttend attend score
  refine Finset.sum_congr rfl fun j _ => ?_
  rw [hv j]
  refine congrArg (fun s => weight s * _) (Finset.sum_congr rfl fun d _ => ?_)
  rw [hq d, hk j d]

/-- The printed index maps, decided over the 128 grid points: the query block moves with the result block; the key and
    value blocks share its batch and head and sit at row block 0; no block index leaves its range. -/
theorem index_facts : ∀ t : Fin cfg0.N,
    (win0_0.index t (0 : Fin 4) = win0_3.index t (0 : Fin 4) ∧ win0_0.index t (1 : Fin 4) = win0_3.index t (1 : Fin 4)
      ∧ win0_0.index t (2 : Fin 4) = win0_3.index t (2 : Fin 4) ∧ win0_0.index t (3 : Fin 4) = 0)
    ∧ (win0_1.index t (0 : Fin 4) = win0_3.index t (0 : Fin 4) ∧ win0_1.index t (1 : Fin 4) = win0_3.index t (1 : Fin 4)
      ∧ win0_1.index t (2 : Fin 4) = 0 ∧ win0_1.index t (3 : Fin 4) = 0)
    ∧ (win0_2.index t (0 : Fin 4) = win0_3.index t (0 : Fin 4) ∧ win0_2.index t (1 : Fin 4) = win0_3.index t (1 : Fin 4)
      ∧ win0_2.index t (2 : Fin 4) = 0 ∧ win0_2.index t (3 : Fin 4) = 0)
    ∧ (win0_3.index t (0 : Fin 4) < 4 ∧ win0_3.index t (1 : Fin 4) < 16 ∧ win0_3.index t (2 : Fin 4) < 2
      ∧ win0_3.index t (3 : Fin 4) = 0) :=
  (by decide +kernel : ∀ t : Fin grid0.N, _)

/-- Every (batch, head, half) is some point's result block. -/
theorem index_onto : ∀ (q0 : Fin 4) (q1 : Fin 16) (q2 : Fin 2), ∃ t : Fin cfg0.N, win0_3.index t = ![q0.val, q1.val, q2.val, 0] :=
  (by decide +kernel : ∀ (q0 : Fin 4) (q1 : Fin 16) (q2 : Fin 2), ∃ t : Fin grid0.N, win0_3.index t = ![q0.val, q1.val, q2.val, 0])

/-- What point t writes back is block t of the attention formula of the argument arrays. -/
theorem flushed_eq (c : Dev nD) (t : Fin cfg0.N) :
    (dats m 0 c).flushed 3 t
      = ((cfg0.win 3).blk t).view.read (Elt Ideal) (attend (V m c main_arg0) (V m c main_arg1) (V m c main_arg2)) := by
  show (cfg0.win 3).cut (grid0.coords t) ((dats m 0 c).after 3 t) = _
  rw [after0_3]
  unfold out0_3
  rw [View.canon_unit_zero zero_offsets]
  simp only [View.ld_unit_zero (S := S1x1x1024x64) zero_offsets, View.ld_unit_zero (S := S1x1x2048x64) zero_offsets]
  rw [BlockValue.payload_eq]
  obtain ⟨⟨a0, a1, a2, a3⟩, ⟨b0, b1, b2, b3⟩, ⟨c0, c1, c2, c3⟩, ⟨o0, o1, o2, o3⟩⟩ := index_facts t
  funext y
  have hy0 : (y 0).val < 1 := (y 0).isLt
  have hy1 : (y 1).val < 1 := (y 1).isLt
  show blockAttend (iblk m c 0 t) (iblk m c 1 t) (iblk m c 2 t) y
      = attend (V m c main_arg0) (V m c main_arg1) (V m c main_arg2) (((cfg0.win 3).blk t).view.emb y)
  refine blockAttend_eq_attend_at _ _ _ _ _ _ y _ (fun d => ?_) (fun j d => ?_) (fun j => ?_)
  · show V m c main_arg0 (((cfg0.win 0).blk t).view.emb (ix4 (0 : Fin 1) (0 : Fin 1) (y 2) d)) = _
    refine congrArg (V m c main_arg0) (funext fun a => Fin.ext ?_)
    match a with
    | ⟨0, _⟩ => show win0_0.index t (0 : Fin 4) * 1 + 1 * 0 = win0_3.index t (0 : Fin 4) * 1 + 1 * (y 0).val; omega
    | ⟨1, _⟩ => show win0_0.index t (1 : Fin 4) * 1 + 1 * 0 = win0_3.index t (1 : Fin 4) * 1 + 1 * (y 1).val; omega
    | ⟨2, _⟩ => show win0_0.index t (2 : Fin 4) * 1024 + 1 * (y 2).val = win0_3.index t (2 : Fin 4) * 1024 + 1 * (y 2).val; omega
    | ⟨3, _⟩ => show win0_0.index t (3 : Fin 4) * 64 + 1 * d.val = d.val; omega
  · show V m c main_arg1 (((cfg0.win 1).blk t).view.emb (ix4 (0 : Fin 1) (0 : Fin 1) j d)) = _
    refine congrArg (V m c main_arg1) (funext fun a => Fin.ext ?_)
    match a with
    | ⟨0, _⟩ => show win0_1.index t (0 : Fin 4) * 1 + 1 * 0 = win0_3.index t (0 : Fin 4) * 1 + 1 * (y 0).val; omega
    | ⟨1, _⟩ => show win0_1.index t (1 : Fin 4) * 1 + 1 * 0 = win0_3.index t (1 : Fin 4) * 1 + 1 * (y 1).val; omega
    | ⟨2, _⟩ => show win0_1.index t (2 : Fin 4) * 2048 + 1 * j.val = j.val; omega
    | ⟨3, _⟩ => show win0_1.index t (3 : Fin 4) * 64 + 1 * d.val = d.val; omega
  · show V m c main_arg2 (((cfg0.win 2).blk t).view.emb (ix4 (0 : Fin 1) (0 : Fin 1) j (y 3))) = _
    refine congrArg (V m c main_arg2) (funext fun a => Fin.ext ?_)
    match a with
    | ⟨0, _⟩ => show win0_2.index t (0 : Fin 4) * 1 + 1 * 0 = win0_3.index t (0 : Fin 4) * 1 + 1 * (y 0).val; omega
    | ⟨1, _⟩ => show win0_2.index t (1 : Fin 4) * 1 + 1 * 0 = win0_3.index t (1 : Fin 4) * 1 + 1 * (y 1).val; omega
    | ⟨2, _⟩ => show win0_2.index t (2 : Fin 4) * 2048 + 1 * j.val = j.val; omega
    | ⟨3, _⟩ => show win0_2.index t (3 : Fin 4) * 64 + 1 * (y 3).val = win0_3.index t (3 : Fin 4) * 64 + 1 * (y 3).val; omega

/-- An index of the array is in point t's result block iff each coordinate is in the block's range on its axis. -/
theorem mem_block (t : Fin cfg0.N) (i : S4x16x2048x64.Idx) :
    i ∈ ((cfg0.win 3).blk t).view.set ↔ ∀ a : Fin 4, win0_3.index t a * S1x1x1024x64.size a ≤ (i a).val
      ∧ (i a).val < win0_3.index t a * S1x1x1024x64.size a + S1x1x1024x64.size a := by
  show i ∈ ((View.whole main_v0).slice (win0_3.rect t)).set ↔ _
  rw [View.set_slice_whole, Rect.mem_set_unit]
  exact Iff.rfl

/-- The result blocks tile the array: (b, h, r, e) is in the block of the point (b, h, r / 1024). -/
theorem covered (i : S4x16x2048x64.Idx) :
    ∃ t : Fin cfg0.N, (cfg0.win 3).flush t = true ∧ i ∈ ((cfg0.win 3).blk t).view.set := by
  have hi0 : (i 0).val < 4 := (i 0).isLt
  have hi1 : (i 1).val < 16 := (i 1).isLt
  have hi2 : (i 2).val < 2048 := (i 2).isLt
  have hi3 : (i 3).val < 64 := (i 3).isLt
  obtain ⟨t, ht⟩ := index_onto ⟨(i 0).val, hi0⟩ ⟨(i 1).val, hi1⟩ ⟨(i 2).val / 1024, by omega⟩
  have q0 : win0_3.index t (0 : Fin 4) = (i 0).val := congrFun ht 0
  have q1 : win0_3.index t (1 : Fin 4) = (i 1).val := congrFun ht 1
  have q2 : win0_3.index t (2 : Fin 4) = (i 2).val / 1024 := congrFun ht 2
  have q3 : win0_3.index t (3 : Fin 4) = 0 := congrFun ht 3
  refine ⟨t, flush0_3 t, ?_⟩
  rw [mem_block]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 1 ≤ (i 1).val ∧ (i 1).val < win0_3.index t (1 : Fin 4) * 1 + 1; omega
  | ⟨2, _⟩ => show win0_3.index t (2 : Fin 4) * 1024 ≤ (i 2).val ∧ (i 2).val < win0_3.index t (2 : Fin 4) * 1024 + 1024; omega
  | ⟨3, _⟩ => show win0_3.index t (3 : Fin 4) * 64 ≤ (i 3).val ∧ (i 3).val < win0_3.index t (3 : Fin 4) * 64 + 64; omega

/-- The result array after the run is the attention formula of the argument arrays. -/
theorem final (c : Dev nD) :
    (dats m 0 c).arrAt 3 cfg0.N
      = attend (m ((c : Thread nD τ).loc main_arg0)) (m ((c : Thread nD τ).loc main_arg1)) (m ((c : Thread nD τ).loc main_arg2)) :=
  (dats m 0 c).arrAt_eq_of_cover 3 _ (fun t _ => flushed_eq m c t) covered

/-- The kernel's run, read: the result array at the attention formula of the arguments, the arguments unchanged. -/
theorem run : θ_run defs (onTc (τ := τ) (main (F := Ideal))) ⟨m, fun _ => 0, ρ⟩ fun r => ∀ c : Dev nD,
      r.2.mem ((c : Thread nD τ).loc main_v0)
        = attend (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.ArrayValue

end
-- ==== Proof.lean ====
/-
  Sigmoid attention on [4, 16, 2048, 64] arrays q, k, v: the tiled kernel and the plain reference compute one function
  on the extended reals,

    out[b, h, a, e] = Σ_j  w(Σ_d q[b, h, a, d] · k[b, h, j, d]) · v[b, h, j, e],      w(x) = 1 / (1 + e^(-(x/8))).

  The kernel works on blocks of 1024 query rows of one (batch, head) pair against all 2048 key and value rows of that
  pair, and spells the weight 1/2 · (tanh (1/2 · (x · 1/8)) + 1); the reference contracts the whole arrays and spells it
  1 / (1 + e^(-(x / 8))). Three facts join them:
    • the two spellings of the weight agree at EVERY extended real, the infinities included (SigmoidForms), so the
      scores need not be finite and the precondition is never opened;
    • a product into a zero accumulator and the host's contraction are the same finite sum, and a change of float
      format is the identity (BlockValue, ReferenceValue);
    • a result block depends only on its own query rows and on the whole key and value matrices of its (batch, head),
      and the 128 result blocks tile the array (ArrayValue).
  The kernel's reading on the extended reals is its own text, operation for operation, so there is nothing further to
  preserve.
-/
import proofs.«155484_j54846732370353_2_alg».proof.Defs
import proofs.«155484_j54846732370353_2_alg».proof.Proof.Gen.Kernel
import proofs.«155484_j54846732370353_2_alg».proof.Proof.Gen.Kernel.Skeleton
import proofs.«155484_j54846732370353_2_alg».proof.Proof.Gen.Kernel.Launch
import proofs.«155484_j54846732370353_2_alg».proof.Proof.Gen.Kernel.Points
import proofs.«155484_j54846732370353_2_alg».proof.Proof.Gen.Kernel.Frame
import proofs.«155484_j54846732370353_2_alg».proof.Proof.Gen.KernelIdeal
import proofs.«155484_j54846732370353_2_alg».proof.Proof.Gen.KernelIdeal.Skeleton
import proofs.«155484_j54846732370353_2_alg».proof.Proof.Gen.KernelIdeal.Launch
import proofs.«155484_j54846732370353_2_alg».proof.Proof.Gen.KernelIdeal.Points
import proofs.«155484_j54846732370353_2_alg».proof.Proof.Gen.KernelIdeal.Frame
import proofs.«155484_j54846732370353_2_alg».proof.Proof.Gen.ReferenceIdeal
import proofs.«155484_j54846732370353_2_alg».proof.Proof.Gen.Pre_finite_inputs
import proofs.«155484_j54846732370353_2_alg».proof.Proof.Gen.KernelIdeal.Value
import proofs.«155484_j54846732370353_2_alg».proof.Proof.Gen.ReferenceIdeal.Run
import proofs.«155484_j54846732370353_2_alg».proof.Proof.Gen.ReferenceIdeal.Read
import proofs.«155484_j54846732370353_2_alg».proof.Proof.ReferenceValue
import proofs.«155484_j54846732370353_2_alg».proof.Proof.ArrayValue
import Idealize.ShloMosaic.Adequacy
import Idealize.ShloMosaic.Init

noncomputable section

namespace Cert.Proof

open Idealize.ShloMosaic Idealize.SL.Sem

/-- The kernel as printed runs to the end without a fault and leaves q, k, v as they were. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference is a straight line of thirteen host operations; its run leaves the arguments unchanged. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the reading on the extended reals. -/
theorem preserves : Cert.preserves_Kernel_KernelIdeal := trivial

/-- From memories that agree on q, k, v both programs end with the attention formula of those arrays in their result. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
